-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S512x128 .f32) (main_arg7 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg6
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S800000x128 .f32) (main_arg2 : IVec S800000 32) (main_arg3 : IVec S800000 32) (main_arg4 : FVec F S256x512 .f32) (main_arg5 : FVec F S512 .f32) (main_arg6 : FVec F S512x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S_ : Shape := ⟨0, ![]⟩
abbrev S800000x1 : Shape := ⟨2, ![800000, 1]⟩
abbrev S5000x128 : Shape := ⟨2, ![5000, 128]⟩
abbrev S5000x256 : Shape := ⟨2, ![5000, 256]⟩
abbrev S5000x512 : Shape := ⟨2, ![5000, 512]⟩
abbrev S1x512 : Shape := ⟨2, ![1, 512]⟩
abbrev S1x128 : Shape := ⟨2, ![1, 128]⟩

abbrev nBuf : Space → Nat
  | .hbm => 13
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S256x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S_, .f32⟩
  | .hbm, ⟨9, _⟩ => ⟨S50000x128, .f32⟩
  | .hbm, ⟨10, _⟩ => ⟨S800000x1, .i32⟩
  | .hbm, ⟨11, _⟩ => ⟨S50000x128, .f32⟩
  | .hbm, ⟨12, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x512, .f32⟩
  | .local _ .vmem, ⟨5, _⟩ => ⟨S512, .f32⟩
  | .local _ .vmem, ⟨6, _⟩ => ⟨S512x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  concatenates_S5000x128_S5000x128_S5000x256_d1 : Shape.Concatenates [S5000x128, S5000x128] S5000x256 1
  inb_S256x512_S256x512_0_0 : ∀ a, (![0, 0] : Fin 2 → Nat) a + S256x512.size a ≤ S256x512.size a
  h_S256x512 : 0 < S256x512.numel
  inb_S512x128_S512x128_0_0 : ∀ a, (![0, 0] : Fin 2 → Nat) a + S512x128.size a ≤ S512x128.size a
  h_S512x128 : 0 < S512x128.numel
  inb_S512_S512_0 : ∀ a, (![0] : Fin 1 → Nat) a + S512.size a ≤ S512.size a
  h_S512 : 0 < S512.numel
  shapeCasts_S512_S1x512 : S512.ShapeCasts S1x512
  broadcasts_S1x512_S5000x512 : S1x512.Broadcasts S5000x512
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000x128_S800000x1_S800000x128_1_0_0_1_wf : ScatterDims.WF S50000x128 S800000x1 S800000x128 [1] [0] [0] 1
  dot_S5000x256_S256x512_S5000x512_1_0_0_1_n_n_wf : DotDims.WF S5000x256 S256x512 S5000x512 [1] [0] [0] [1] [] []
  dot_S5000x512_S512x128_S5000x128_1_0_0_1_n_n_wf : DotDims.WF S5000x512 S512x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x512_S5000x512_1_0_0_1_n_n : DotDims S5000x256 S256x512 S5000x512 where
  lhsContracting := [1]
  rhsContracting := [0]
  lhsNonContracting := [0]
  rhsNonContracting := [1]
  lhsBatch := []
  rhsBatch := []
  wf := dot_S5000x256_S256x512_S5000x512_1_0_0_1_n_n_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf

abbrev win0_0 : Pipeline.Window sig grid0 :=
  Pipeline.Window.ofSpec (Memref.whole main_v2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S_ : Shape := ⟨0, ![]⟩
abbrev S800000x1 : Shape := ⟨2, ![800000, 1]⟩
abbrev S50000x256 : Shape := ⟨2, ![50000, 256]⟩
abbrev S50000x512 : Shape := ⟨2, ![50000, 512]⟩
abbrev S1x512 : Shape := ⟨2, ![1, 512]⟩
abbrev S1x128 : Shape := ⟨2, ![1, 128]⟩

abbrev nBuf : Space → Nat
  | .hbm => 24
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S256x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S_, .f32⟩
  | .hbm, ⟨9, _⟩ => ⟨S50000x128, .f32⟩
  | .hbm, ⟨10, _⟩ => ⟨S800000x1, .i32⟩
  | .hbm, ⟨11, _⟩ => ⟨S50000x128, .f32⟩
  | .hbm, ⟨12, _⟩ => ⟨S50000x256, .f32⟩
  | .hbm, ⟨13, _⟩ => ⟨S50000x512, .f32⟩
  | .hbm, ⟨14, _⟩ => ⟨S1x512, .f32⟩
  | .hbm, ⟨15, _⟩ => ⟨S50000x512, .f32⟩
  | .hbm, ⟨16, _⟩ => ⟨S50000x512, .f32⟩
  | .hbm, ⟨17, _⟩ => ⟨S_, .f32⟩
  | .hbm, ⟨18, _⟩ => ⟨S50000x512, .f32⟩
  | .hbm, ⟨19, _⟩ => ⟨S50000x512, .f32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  concatenates_S50000x128_S50000x128_S50000x256_d1 : Shape.Concatenates [S50000x128, S50000x128] S50000x256 1
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S800000x1_S800000x128_1_0_0_1_wf : ScatterDims.WF S50000x128 S800000x1 S800000x128 [1] [0] [0] 1
  dot_S50000x256_S256x512_S50000x512_1_0_0_1_n_n_wf : DotDims.WF S50000x256 S256x512 S50000x512 [1] [0] [0] [1] [] []
  dot_S50000x512_S512x128_S50000x128_1_0_0_1_n_n_wf : DotDims.WF S50000x512 S512x128 S50000x128 [1] [0] [0] [1] [] []

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.MlpSpec.lean ====
/-
  The function both programs compute, row by row.  For matrices `A`, `N` with `n` rows of 128 entries, weights
  `W1` (256 × 512), `W2` (512 × 128) and bias rows `b1` (512), `b2` (128) over the extended reals:

      x r      = the row `A r` followed by the row `N r`                         (256 entries)
      h r k    = max (∑ l, x r l · W1 l k + b1 k) 0                              (512 entries)
      out r q  = ∑ k, h r k · W2 k q + b2 q                                      (128 entries)

  Row `r` of the result reads only row `r` of `A` and of `N` (`mlpAt_congr_rows`): this is what lets a
  tile of rows be computed from the same tile of the inputs.  No law of the extended reals beyond rewriting equal
  entries is used, so nothing here asks for finiteness.
-/
import Idealize.ShloMosaic.PureOps.Ideal
import Idealize.ShloMosaic.Lib.ValueIdx

noncomputable section

namespace Cert.Mlp

open Idealize.ShloMosaic Idealize.ShloMosaic.ValueIdx

variable {n : Nat}

/-- Entry `l` of row `r` of `[A | N]`: the first 128 entries are `A`'s row, the last 128 are `N`'s. -/
def catAt (A N : (⟨2, ![n, 128]⟩ : Shape).Idx → EReal) (r : Fin n) (l : Fin 256) : EReal :=
  if h : l.val < 128 then A (ix2 r ⟨l.val, h⟩) else N (ix2 r ⟨l.val - 128, by have := l.isLt; omega⟩)

/-- The hidden layer: `max (x r · W1[:, k] + b1 k) 0`. -/
def hiddenAt (A N : (⟨2, ![n, 128]⟩ : Shape).Idx → EReal) (W1 : (⟨2, ![256, 512]⟩ : Shape).Idx → EReal)
    (b1 : (⟨1, ![512]⟩ : Shape).Idx → EReal) (r : Fin n) (k : Fin 512) : EReal :=
  max ((∑ l : Fin 256, catAt A N r l * W1 (ix2 l k)) + b1 (ix1 k)) 0

/-- The output layer at row `r`, column `q`: `h r · W2[:, q] + b2 q`. -/
def mlpAt (A N : (⟨2, ![n, 128]⟩ : Shape).Idx → EReal) (W1 : (⟨2, ![256, 512]⟩ : Shape).Idx → EReal)
    (b1 : (⟨1, ![512]⟩ : Shape).Idx → EReal) (W2 : (⟨2, ![512, 128]⟩ : Shape).Idx → EReal)
    (b2 : (⟨1, ![128]⟩ : Shape).Idx → EReal) (r : Fin n) (q : Fin 128) : EReal :=
  (∑ k : Fin 512, hiddenAt A N W1 b1 r k * W2 (ix2 k q)) + b2 (ix1 q)

/-- The whole result as an array of `n` rows. -/
def mlp (A N : (⟨2, ![n, 128]⟩ : Shape).Idx → EReal) (W1 : (⟨2, ![256, 512]⟩ : Shape).Idx → EReal)
    (b1 : (⟨1, ![512]⟩ : Shape).Idx → EReal) (W2 : (⟨2, ![512, 128]⟩ : Shape).Idx → EReal)
    (b2 : (⟨1, ![128]⟩ : Shape).Idx → EReal) : (⟨2, ![n, 128]⟩ : Shape).Idx → EReal :=
  fun i => mlpAt A N W1 b1 W2 b2 (i 0) (i 1)

theorem mlp_ix2 (A N : (⟨2, ![n, 128]⟩ : Shape).Idx → EReal) (W1 : (⟨2, ![256, 512]⟩ : Shape).Idx → EReal)
    (b1 : (⟨1, ![512]⟩ : Shape).Idx → EReal) (W2 : (⟨2, ![512, 128]⟩ : Shape).Idx → EReal)
    (b2 : (⟨1, ![128]⟩ : Shape).Idx → EReal) (r : Fin n) (q : Fin 128) :
    mlp A N W1 b1 W2 b2 (ix2 r q) = mlpAt A N W1 b1 W2 b2 r q := rfl

/-- Row `r'` of `[A' | N']` is row `r` of `[A | N]` when the two rows of `A` and of `N` agree. -/
theorem cat_congr_rows {n' : Nat} (A N : (⟨2, ![n, 128]⟩ : Shape).Idx → EReal)
    (A' N' : (⟨2, ![n', 128]⟩ : Shape).Idx → EReal) (r : Fin n) (r' : Fin n')
    (hA : ∀ l : Fin 128, A' (ix2 r' l) = A (ix2 r l)) (hN : ∀ l : Fin 128, N' (ix2 r' l) = N (ix2 r l))
    (l : Fin 256) : catAt A' N' r' l = catAt A N r l := by
  unfold catAt
  by_cases h : l.val < 128
  · rw [dif_pos h, dif_pos h]; exact hA _
  · rw [dif_neg h, dif_neg h]; exact hN _

/-- The result at row `r'` computed from `A'`, `N'` is the result at row `r` computed from `A`, `N` when
    row `r'` of `A'` (of `N'`) is row `r` of `A` (of `N`): a row of the result reads one row of each. -/
theorem mlpAt_congr_rows {n' : Nat} (A N : (⟨2, ![n, 128]⟩ : Shape).Idx → EReal)
    (A' N' : (⟨2, ![n', 128]⟩ : Shape).Idx → EReal) (W1 : (⟨2, ![256, 512]⟩ : Shape).Idx → EReal)
    (b1 : (⟨1, ![512]⟩ : Shape).Idx → EReal) (W2 : (⟨2, ![512, 128]⟩ : Shape).Idx → EReal)
    (b2 : (⟨1, ![128]⟩ : Shape).Idx → EReal) (r : Fin n) (r' : Fin n') (q : Fin 128)
    (hA : ∀ l : Fin 128, A' (ix2 r' l) = A (ix2 r l)) (hN : ∀ l : Fin 128, N' (ix2 r' l) = N (ix2 r l)) :
    mlpAt A' N' W1 b1 W2 b2 r' q = mlpAt A N W1 b1 W2 b2 r q := by
  unfold mlpAt hiddenAt
  refine congrArg (· + b2 (ix1 q)) (Finset.sum_congr rfl fun k _ => ?_)
  refine congrArg (fun z => max (z + b1 (ix1 k)) 0 * W2 (ix2 k q)) (Finset.sum_congr rfl fun l _ => ?_)
  rw [cat_congr_rows A N A' N' r r' hA hN l]

end Cert.Mlp

end
-- ==== Proof.Tile.lean ====
/-
  One tile of the kernel: what the body stores, as a function of the six blocks it loads, is the two-layer function
  of `MlpSpec` on 5000 rows.  The two roundings to bf16 are the identity on extended reals; each matrix product
  into a zero accumulator is the plain sum over its one contracted axis; the bias, reshaped to one row and broadcast
  down the rows, reads the bias at the column; the concatenation along the columns is the side-by-side row.
-/
import proofs.«104883_j3375844295136_2_alg».proof.Proof.Gen.KernelIdeal.Skeleton
import proofs.«104883_j3375844295136_2_alg».proof.Proof.MlpSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.Mlp

/-! ## The two matrix products at an entry -/

/-- In the first product the left operand is read on the output entry's row … -/
theorem dot1_lhs0 (i : S5000x512.Idx) (c : dot_S5000x256_S256x512_S5000x512_1_0_0_1_n_n.contr.Idx) :
    (dot_S5000x256_S256x512_S5000x512_1_0_0_1_n_n.lhsIdx i c 0).val = (i 0).val := by
  unfold DotDims.lhsIdx
  rw [dif_neg (show ¬(0 : Fin S5000x256.rank) ∈ dot_S5000x256_S256x512_S5000x512_1_0_0_1_n_n.lhsBatch by decide),
    dif_pos (show (0 : Fin S5000x256.rank) ∈ dot_S5000x256_S256x512_S5000x512_1_0_0_1_n_n.lhsNonContracting by decide)]
  rfl

/-- … and the right operand on the output entry's column. -/
theorem dot1_rhs1 (i : S5000x512.Idx) (c : dot_S5000x256_S256x512_S5000x512_1_0_0_1_n_n.contr.Idx) :
    (dot_S5000x256_S256x512_S5000x512_1_0_0_1_n_n.rhsIdx i c 1).val = (i 1).val := by
  unfold DotDims.rhsIdx
  rw [dif_neg (show ¬(1 : Fin S256x512.rank) ∈ dot_S5000x256_S256x512_S5000x512_1_0_0_1_n_n.rhsBatch by decide),
    dif_pos (show (1 : Fin S256x512.rank) ∈ dot_S5000x256_S256x512_S5000x512_1_0_0_1_n_n.rhsNonContracting by decide)]
  rfl

/-- The first product at `(p, k)`: the sum over the 256 joined columns of row `p` against column `k`. -/
theorem dot1_apply (lhs : FVec Ideal S5000x256 .bf16) (rhs : FVec Ideal S256x512 .bf16) (p : Fin 5000) (k : Fin 512) :
    matmul dot_S5000x256_S256x512_S5000x512_1_0_0_1_n_n none lhs rhs (constant (F := Ideal) S5000x512 .f32 0x00000000#32) (ix2 p k)
      = ∑ l : Fin 256, lhs (ix2 p l) * rhs (ix2 l k) := by
  refine (Ideal.matmul_constant_zero_apply dot_S5000x256_S256x512_S5000x512_1_0_0_1_n_n none lhs rhs (ix2 p k)).trans ?_
  rw [← Equiv.sum_comp (contrEquiv1 dot_S5000x256_S256x512_S5000x512_1_0_0_1_n_n 256 rfl rfl).symm]
  refine Finset.sum_congr rfl fun l _ => ?_
  have hl := contrEquiv1_symm_val dot_S5000x256_S256x512_S5000x512_1_0_0_1_n_n 256 rfl rfl l
  have el : dot_S5000x256_S256x512_S5000x512_1_0_0_1_n_n.lhsIdx (ix2 p k) ((contrEquiv1 dot_S5000x256_S256x512_S5000x512_1_0_0_1_n_n 256 rfl rfl).symm l) = ix2 p l :=
    funext fun a => Fin.ext (by
      match a with
      | ⟨0, _⟩ => exact dot1_lhs0 _ _
      | ⟨1, _⟩ => exact (dot_S5000x256_S256x512_S5000x512_1_0_0_1_n_n.lhsIdx_val_of_single rfl _ _).trans hl)
  have er : dot_S5000x256_S256x512_S5000x512_1_0_0_1_n_n.rhsIdx (ix2 p k) ((contrEquiv1 dot_S5000x256_S256x512_S5000x512_1_0_0_1_n_n 256 rfl rfl).symm l) = ix2 l k :=
    funext fun a => Fin.ext (by
      match a with
      | ⟨0, _⟩ => exact (dot_S5000x256_S256x512_S5000x512_1_0_0_1_n_n.rhsIdx_val_of_single rfl _ _).trans hl
      | ⟨1, _⟩ => exact dot1_rhs1 _ _)
  rw [el, er]

/-- In the second product the left operand is read on the output entry's row … -/
theorem dot2_lhs0 (i : S5000x128.Idx) (c : dot_S5000x512_S512x128_S5000x128_1_0_0_1_n_n.contr.Idx) :
    (dot_S5000x512_S512x128_S5000x128_1_0_0_1_n_n.lhsIdx i c 0).val = (i 0).val := by
  unfold DotDims.lhsIdx
  rw [dif_neg (show ¬(0 : Fin S5000x512.rank) ∈ dot_S5000x512_S512x128_S5000x128_1_0_0_1_n_n.lhsBatch by decide),
    dif_pos (show (0 : Fin S5000x512.rank) ∈ dot_S5000x512_S512x128_S5000x128_1_0_0_1_n_n.lhsNonContracting by decide)]
  rfl

/-- … and the right operand on the output entry's column. -/
theorem dot2_rhs1 (i : S5000x128.Idx) (c : dot_S5000x512_S512x128_S5000x128_1_0_0_1_n_n.contr.Idx) :
    (dot_S5000x512_S512x128_S5000x128_1_0_0_1_n_n.rhsIdx i c 1).val = (i 1).val := by
  unfold DotDims.rhsIdx
  rw [dif_neg (show ¬(1 : Fin S512x128.rank) ∈ dot_S5000x512_S512x128_S5000x128_1_0_0_1_n_n.rhsBatch by decide),
    dif_pos (show (1 : Fin S512x128.rank) ∈ dot_S5000x512_S512x128_S5000x128_1_0_0_1_n_n.rhsNonContracting by decide)]
  rfl

/-- The second product at `(p, q)`: the sum over the 512 hidden columns of row `p` against column `q`. -/
theorem dot2_apply (lhs : FVec Ideal S5000x512 .bf16) (rhs : FVec Ideal S512x128 .bf16) (p : Fin 5000) (q : Fin 128) :
    matmul dot_S5000x512_S512x128_S5000x128_1_0_0_1_n_n none lhs rhs (constant (F := Ideal) S5000x128 .f32 0x00000000#32) (ix2 p q)
      = ∑ k : Fin 512, lhs (ix2 p k) * rhs (ix2 k q) := by
  refine (Ideal.matmul_constant_zero_apply dot_S5000x512_S512x128_S5000x128_1_0_0_1_n_n none lhs rhs (ix2 p q)).trans ?_
  rw [← Equiv.sum_comp (contrEquiv1 dot_S5000x512_S512x128_S5000x128_1_0_0_1_n_n 512 rfl rfl).symm]
  refine Finset.sum_congr rfl fun k _ => ?_
  have hk := contrEquiv1_symm_val dot_S5000x512_S512x128_S5000x128_1_0_0_1_n_n 512 rfl rfl k
  have el : dot_S5000x512_S512x128_S5000x128_1_0_0_1_n_n.lhsIdx (ix2 p q) ((contrEquiv1 dot_S5000x512_S512x128_S5000x128_1_0_0_1_n_n 512 rfl rfl).symm k) = ix2 p k :=
    funext fun a => Fin.ext (by
      match a with
      | ⟨0, _⟩ => exact dot2_lhs0 _ _
      | ⟨1, _⟩ => exact (dot_S5000x512_S512x128_S5000x128_1_0_0_1_n_n.lhsIdx_val_of_single rfl _ _).trans hk)
  have er : dot_S5000x512_S512x128_S5000x128_1_0_0_1_n_n.rhsIdx (ix2 p q) ((contrEquiv1 dot_S5000x512_S512x128_S5000x128_1_0_0_1_n_n 512 rfl rfl).symm k) = ix2 k q :=
    funext fun a => Fin.ext (by
      match a with
      | ⟨0, _⟩ => exact (dot_S5000x512_S512x128_S5000x128_1_0_0_1_n_n.rhsIdx_val_of_single rfl _ _).trans hk
      | ⟨1, _⟩ => exact dot2_rhs1 _ _)
  rw [el, er]

/-! ## The body's pieces, named -/

/-- The two loaded blocks, rounded and joined along the columns. -/
def joined (v0 v3 : Vec Ideal S5000x128 .f32) : FVec Ideal S5000x256 .bf16 :=
  concatenate S5000x256 1 [⟨S5000x128, truncf .bf16 (shapeCast S5000x128 v0 shapeCasts_S5000x128_S5000x128) bitsLt_bf16_f32⟩,
    ⟨S5000x128, truncf .bf16 v3 bitsLt_bf16_f32⟩] concatenates_S5000x128_S5000x128_S5000x256_d1

/-- The hidden activations of the tile: first product, bias, `max · 0`. -/
def act (v0 v3 : Vec Ideal S5000x128 .f32) (v6 : Vec Ideal S256x512 .f32) (v11 : Vec Ideal S512 .f32) : FVec Ideal S5000x512 .f32 :=
  maximumf (addf (matmul dot_S5000x256_S256x512_S5000x512_1_0_0_1_n_n none (joined v0 v3) (truncf .bf16 v6 bitsLt_bf16_f32)
      (constant (F := Ideal) S5000x512 .f32 0x00000000#32))
    (broadcastTo S5000x512 (shapeCast S1x512 v11 shapeCasts_S512_S1x512) broadcasts_S1x512_S5000x512))
    (broadcast S5000x512 (Scalar.ofBits (F := Ideal) .f32 0x00000000#32))

/-- The stored value is the second product of the activations plus the second bias. -/
theorem pay_unfold (v0 v3 : Vec Ideal S5000x128 .f32) (v6 : Vec Ideal S256x512 .f32) (v8 : Vec Ideal S512x128 .f32)
    (v11 : Vec Ideal S512 .f32) (v19 : Vec Ideal S128 .f32) :
    k0_pay1 (F := Ideal) v0 v3 v6 v8 v11 v19
      = addf (matmul dot_S5000x512_S512x128_S5000x128_1_0_0_1_n_n none (truncf .bf16 (act v0 v3 v6 v11) bitsLt_bf16_f32)
          (truncf .bf16 v8 bitsLt_bf16_f32) (constant (F := Ideal) S5000x128 .f32 0x00000000#32))
        (broadcastTo S5000x128 (shapeCast S1x128 v19 shapeCasts_S128_S1x128) broadcasts_S1x128_S5000x128) := rfl

/-! ## Each piece at an entry -/

/-- The joined block at row `p`, entry `l` is the side-by-side row of the two blocks. -/
theorem joined_apply (v0 v3 : Vec Ideal S5000x128 .f32) (p : Fin 5000) (l : Fin 256) :
    joined v0 v3 (ix2 p l) = catAt v0 v3 p l := by
  unfold joined catAt
  rw [shapeCast_self]
  by_cases h : l.val < 128
  · rw [dif_pos h]
    exact concatenate_pair_apply_left (t := S5000x256) (s₁ := S5000x128) (s₂ := S5000x128) 1 _ _ _ (ix2 p l) rfl
      (ix2 p ⟨l.val, h⟩) (fun b => by
        match b with
        | ⟨0, _⟩ => rfl
        | ⟨1, _⟩ => rfl)
  · rw [dif_neg h]
    refine concatenate_pair_apply_right (t := S5000x256) (s₁ := S5000x128) (s₂ := S5000x128) 1 _ _ _ (ix2 p l) rfl rfl
      (ix2 p ⟨l.val - 128, by have := l.isLt; omega⟩) (fun b hb => ?_) ?_
    · match b with
      | ⟨0, _⟩ => rfl
      | ⟨1, _⟩ => exact absurd rfl hb
    · show l.val - 128 + 128 = l.val
      omega

/-- The first bias, made one row and repeated down the 5000 rows, reads the bias at the column. -/
theorem bias1_apply (v11 : Vec Ideal S512 .f32) (p : Fin 5000) (k : Fin 512) :
    broadcastTo S5000x512 (shapeCast S1x512 v11 shapeCasts_S512_S1x512) broadcasts_S1x512_S5000x512 (ix2 p k) = v11 (ix1 k) :=
  (broadcastTo_1b_ab_apply _ broadcasts_S1x512_S5000x512 p k).trans (shapeCast_a_1a_apply v11 shapeCasts_S512_S1x512 0 k)

/-- The second bias likewise. -/
theorem bias2_apply (v19 : Vec Ideal S128 .f32) (p : Fin 5000) (q : Fin 128) :
    broadcastTo S5000x128 (shapeCast S1x128 v19 shapeCasts_S128_S1x128) broadcasts_S1x128_S5000x128 (ix2 p q) = v19 (ix1 q) :=
  (broadcastTo_1b_ab_apply _ broadcasts_S1x128_S5000x128 p q).trans (shapeCast_a_1a_apply v19 shapeCasts_S128_S1x128 0 q)

/-- The tile's activations are `hiddenAt` of the loaded blocks. -/
theorem act_apply (v0 v3 : Vec Ideal S5000x128 .f32) (v6 : Vec Ideal S256x512 .f32) (v11 : Vec Ideal S512 .f32)
    (p : Fin 5000) (k : Fin 512) : act v0 v3 v6 v11 (ix2 p k) = hiddenAt v0 v3 v6 v11 p k := by
  unfold act hiddenAt
  rw [maximumf_apply, addf_apply, dot1_apply, bias1_apply, broadcast_apply]
  simp only [joined_apply, truncf_apply]
  exact congrArg (max _) Ideal.ofBits_zero_f32

/-- The stored tile is `mlp` of the loaded blocks. -/
theorem pay_eq (v0 v3 : Vec Ideal S5000x128 .f32) (v6 : Vec Ideal S256x512 .f32) (v8 : Vec Ideal S512x128 .f32)
    (v11 : Vec Ideal S512 .f32) (v19 : Vec Ideal S128 .f32) :
    k0_pay1 (F := Ideal) v0 v3 v6 v8 v11 v19 = mlp v0 v3 v6 v11 v8 v19 := by
  rw [pay_unfold]
  funext i
  obtain ⟨p, q, rfl⟩ : ∃ (p : Fin 5000) (q : Fin 128), i = ix2 p q := ⟨i 0, i 1, eq_ix2 i⟩
  rw [mlp_ix2, addf_apply, dot2_apply, bias2_apply]
  unfold mlpAt
  simp only [truncf_apply, act_apply]

end Cert.KernelIdeal.Tile

end
-- ==== Proof.Whole.lean ====
/-
  From tiles to the whole result.  Grid point `t` (of 10) loads rows `5000·t … 5000·t + 4999` of the scattered
  sums and of the node features, and the weights and biases whole; it writes rows `5000·t … 5000·t + 4999` of the
  result.  Since a row of `mlp` reads only the same row of its two row arguments, the tile written at `t` is the
  same rows of `mlp` of the whole arrays; the ten tiles cover all 50000 rows (row `r` lies in tile `r / 5000`),
  so the result array ends as `mlp` of the whole arrays.  The scattered sums are what the host computed before
  the launch; they stay one unopened term.
-/
import proofs.«104883_j3375844295136_2_alg».proof.Proof.Gen.KernelIdeal.Value
import proofs.«104883_j3375844295136_2_alg».proof.Proof.Tile
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

/-- Zero offsets on two axes, and on one. -/
theorem zeros2 : (![0, 0] : Fin 2 → Nat) = fun _ => 0 := funext fun a => by fin_cases a <;> rfl
theorem zeros1 : (![0] : Fin 1 → Nat) = fun _ => 0 := funext fun a => by fin_cases a <;> rfl

/-- The printed index maps over the grid: the three row-tiled windows sit at block row `t`, block column 0; the
    four whole-array windows at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The grid has ten points. -/
theorem point_lt (t : Fin cfg0.N) : t.val < 10 := Nat.lt_of_lt_of_eq t.isLt N_0

/-! ## The host's work before the launch -/

/-- The edge features summed into their receivers' rows (the host's scatter-add into zeros), as one term. -/
def agg (x3 : IVec S800000 32) (x1 : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 x3) x1

/-- What the launch finds in the first window's array. -/
theorem V_agg (c : Dev nD) :
    (V m c main_v2 : S50000x128.Idx → EReal) = agg (m ((c : Thread nD τ).loc main_arg3)) (m ((c : Thread nD τ).loc main_arg1)) := by
  dsimp only [Gen.V, Gen.hostOps0]; after_results; rfl

/-! ## Reading a window's block of an array

Stated for an arbitrary array `A`, so that what the launch finds in the arrays is never looked into. -/

/-- Window 0 at point `t`: rows `5000·t …` of the array. -/
theorem read_rows0 (t : Fin cfg0.N) (A : S50000x128.Idx → EReal) (p : Fin 5000) (l : Fin 128) (hr : t.val * 5000 + p.val < 50000) :
    ((cfg0.win 0).blk t).view.read (Elt Ideal) A (ix2 p l) = A (ix2 ⟨t.val * 5000 + p.val, hr⟩ l) := by
  obtain ⟨e0, e1, -⟩ := index_facts t
  have h : ((cfg0.win 0).blk t).view.emb (ix2 p l) = ix2 ⟨t.val * 5000 + p.val, hr⟩ l := funext fun a => Fin.ext (by
    match a with
    | ⟨0, _⟩ => show win0_0.index t (0 : Fin 2) * 5000 + 1 * p.val = t.val * 5000 + p.val; omega
    | ⟨1, _⟩ => show win0_0.index t (1 : Fin 2) * 128 + 1 * l.val = l.val; omega)
  show A (((cfg0.win 0).blk t).view.emb (ix2 p l)) = _
  rw [h]

/-- Window 1 at point `t`: rows `5000·t …` of the array. -/
theorem read_rows1 (t : Fin cfg0.N) (A : S50000x128.Idx → EReal) (p : Fin 5000) (l : Fin 128) (hr : t.val * 5000 + p.val < 50000) :
    ((cfg0.win 1).blk t).view.read (Elt Ideal) A (ix2 p l) = A (ix2 ⟨t.val * 5000 + p.val, hr⟩ l) := by
  obtain ⟨-, -, e0, e1, -⟩ := index_facts t
  have h : ((cfg0.win 1).blk t).view.emb (ix2 p l) = ix2 ⟨t.val * 5000 + p.val, hr⟩ l := funext fun a => Fin.ext (by
    match a with
    | ⟨0, _⟩ => show win0_1.index t (0 : Fin 2) * 5000 + 1 * p.val = t.val * 5000 + p.val; omega
    | ⟨1, _⟩ => show win0_1.index t (1 : Fin 2) * 128 + 1 * l.val = l.val; omega)
  show A (((cfg0.win 1).blk t).view.emb (ix2 p l)) = _
  rw [h]

/-- Window 6 at point `t`: rows `5000·t …` of the array. -/
theorem read_rows6 (t : Fin cfg0.N) (A : S50000x128.Idx → EReal) (p : Fin 5000) (q : Fin 128) (hr : t.val * 5000 + p.val < 50000) :
    ((cfg0.win 6).blk t).view.read (Elt Ideal) A (ix2 p q) = A (ix2 ⟨t.val * 5000 + p.val, hr⟩ q) := by
  obtain ⟨-, -, -, -, -, -, -, -, -, -, e0, e1⟩ := index_facts t
  have h : ((cfg0.win 6).blk t).view.emb (ix2 p q) = ix2 ⟨t.val * 5000 + p.val, hr⟩ q := funext fun a => Fin.ext (by
    match a with
    | ⟨0, _⟩ => show win0_6.index t (0 : Fin 2) * 5000 + 1 * p.val = t.val * 5000 + p.val; omega
    | ⟨1, _⟩ => show win0_6.index t (1 : Fin 2) * 128 + 1 * q.val = q.val; omega)
  show A (((cfg0.win 6).blk t).view.emb (ix2 p q)) = _
  rw [h]

/-- Windows 2 to 5 hold their whole arrays at every point. -/
theorem read_whole2 (t : Fin cfg0.N) (A : S256x512.Idx → EReal) : ((cfg0.win 2).blk t).view.read (Elt Ideal) A = A := by
  obtain ⟨-, -, -, -, e0, e1, -⟩ := index_facts t
  funext y
  have h : ((cfg0.win 2).blk t).view.emb y = y := funext fun a => Fin.ext (by
    match a with
    | ⟨0, _⟩ => show win0_2.index t (0 : Fin 2) * 256 + 1 * (y 0).val = (y 0).val; omega
    | ⟨1, _⟩ => show win0_2.index t (1 : Fin 2) * 512 + 1 * (y 1).val = (y 1).val; omega)
  show A (((cfg0.win 2).blk t).view.emb y) = A y
  rw [h]

theorem read_whole3 (t : Fin cfg0.N) (A : S512.Idx → EReal) : ((cfg0.win 3).blk t).view.read (Elt Ideal) A = A := by
  obtain ⟨-, -, -, -, -, -, e0, -⟩ := index_facts t
  funext y
  have h : ((cfg0.win 3).blk t).view.emb y = y := funext fun a => Fin.ext (by
    match a with
    | ⟨0, _⟩ => show win0_3.index t (0 : Fin 1) * 512 + 1 * (y 0).val = (y 0).val; omega)
  show A (((cfg0.win 3).blk t).view.emb y) = A y
  rw [h]

theorem read_whole4 (t : Fin cfg0.N) (A : S512x128.Idx → EReal) : ((cfg0.win 4).blk t).view.read (Elt Ideal) A = A := by
  obtain ⟨-, -, -, -, -, -, -, e0, e1, -⟩ := index_facts t
  funext y
  have h : ((cfg0.win 4).blk t).view.emb y = y := funext fun a => Fin.ext (by
    match a with
    | ⟨0, _⟩ => show win0_4.index t (0 : Fin 2) * 512 + 1 * (y 0).val = (y 0).val; omega
    | ⟨1, _⟩ => show win0_4.index t (1 : Fin 2) * 128 + 1 * (y 1).val = (y 1).val; omega)
  show A (((cfg0.win 4).blk t).view.emb y) = A y
  rw [h]

theorem read_whole5 (t : Fin cfg0.N) (A : S128.Idx → EReal) : ((cfg0.win 5).blk t).view.read (Elt Ideal) A = A := by
  obtain ⟨-, -, -, -, -, -, -, -, -, e0, -⟩ := index_facts t
  funext y
  have h : ((cfg0.win 5).blk t).view.emb y = y := funext fun a => Fin.ext (by
    match a with
    | ⟨0, _⟩ => show win0_5.index t (0 : Fin 1) * 128 + 1 * (y 0).val = (y 0).val; omega)
  show A (((cfg0.win 5).blk t).view.emb y) = A y
  rw [h]

/-- The written-back part of an uncut tile is the tile. -/
theorem cut_apply (t : Fin cfg0.N) (X : S5000x128.Idx → EReal) (p : Fin 5000) (q : Fin 128) :
    (cfg0.win 6).cut (grid0.coords t) X (ix2 p q) = X (ix2 p q) := rfl

/-! ## The blocks a point loads -/

/-- Row `p` of the first window's block at point `t` is row `5000·t + p` of its array; likewise the second window. -/
theorem rows_agg (c : Dev nD) (t : Fin cfg0.N) (p : Fin 5000) (l : Fin 128) (hr : t.val * 5000 + p.val < 50000) :
    iblk m c 0 t (ix2 p l) = (V m c (Pipeline.arrRef spec0 0) : S50000x128.Idx → EReal) (ix2 ⟨t.val * 5000 + p.val, hr⟩ l) := by
  unfold iblk; exact read_rows0 t _ p l hr

theorem rows_nodes (c : Dev nD) (t : Fin cfg0.N) (p : Fin 5000) (l : Fin 128) (hr : t.val * 5000 + p.val < 50000) :
    iblk m c 1 t (ix2 p l) = (V m c (Pipeline.arrRef spec0 1) : S50000x128.Idx → EReal) (ix2 ⟨t.val * 5000 + p.val, hr⟩ l) := by
  unfold iblk; exact read_rows1 t _ p l hr

/-- The weight and bias windows' blocks are their whole arrays. -/
theorem whole_W1 (c : Dev nD) (t : Fin cfg0.N) : (iblk m c 2 t : S256x512.Idx → EReal) = V m c (Pipeline.arrRef spec0 2) := by
  unfold iblk; exact read_whole2 t _

theorem whole_b1 (c : Dev nD) (t : Fin cfg0.N) : (iblk m c 3 t : S512.Idx → EReal) = V m c (Pipeline.arrRef spec0 3) := by
  unfold iblk; exact read_whole3 t _

theorem whole_W2 (c : Dev nD) (t : Fin cfg0.N) : (iblk m c 4 t : S512x128.Idx → EReal) = V m c (Pipeline.arrRef spec0 4) := by
  unfold iblk; exact read_whole4 t _

theorem whole_b2 (c : Dev nD) (t : Fin cfg0.N) : (iblk m c 5 t : S128.Idx → EReal) = V m c (Pipeline.arrRef spec0 5) := by
  unfold iblk; exact read_whole5 t _

/-! ## What a point writes back -/

/-- The whole result, as the arrays the launch finds determine it (window `w`'s array is `arrRef spec0 w`). -/
def result (c : Dev nD) : S50000x128.Idx → EReal :=
  mlp (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- Point `t` writes back rows `5000·t …` of `result`. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero zeros2]
  simp only [View.ld_unit_zero (S := S5000x128) zeros2, View.ld_unit_zero (S := S256x512) zeros2,
    View.ld_unit_zero (S := S512x128) zeros2, View.ld_unit_zero (S := S512) zeros1, View.ld_unit_zero (S := S128) zeros1]
  rw [Tile.pay_eq, whole_W1, whole_b1, whole_W2, whole_b2]
  have ht := point_lt t
  funext j
  obtain ⟨p, q, rfl⟩ : ∃ (p : Fin 5000) (q : Fin 128), j = ix2 p q := ⟨j 0, j 1, eq_ix2 j⟩
  have hr : t.val * 5000 + p.val < 50000 := by have := p.isLt; omega
  refine (cut_apply t _ p q).trans ?_
  refine Eq.trans ?_ (read_rows6 t (result m c) p q hr).symm
  unfold result
  rw [mlp_ix2, mlp_ix2]
  exact mlpAt_congr_rows (V m c (Pipeline.arrRef spec0 0)) (V m c (Pipeline.arrRef spec0 1)) (iblk m c 0 t) (iblk m c 1 t)
    (V m c (Pipeline.arrRef spec0 2)) (V m c (Pipeline.arrRef spec0 3)) (V m c (Pipeline.arrRef spec0 4)) (V m c (Pipeline.arrRef spec0 5))
    ⟨t.val * 5000 + p.val, hr⟩ p q (fun l => rows_agg m c t p l hr) (fun l => rows_nodes m c t p l hr)

/-! ## The tiles cover the array -/

/-- An entry of the result array lies in point `t`'s tile iff each coordinate lies in the tile's range. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v3).slice (win0_6.rect t)).set ↔ _
  rw [View.set_slice_whole, Rect.mem_set_unit]
  exact Iff.rfl

/-- Row `r` lies in the tile of point `r / 5000`: the ten tiles cover the array. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  let t : Fin cfg0.N := ⟨(i 0).val / 5000, Nat.lt_of_lt_of_eq (by omega : (i 0).val / 5000 < 10) N_0.symm⟩
  obtain ⟨-, -, -, -, -, -, -, -, -, -, e0, e1⟩ := index_facts t
  have e0' : win0_6.index t (0 : Fin 2) = (i 0).val / 5000 := e0
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-! ## The array after the run -/

/-- The result array after the run: `mlp` of the scattered sums, the node features and the weights as launched. -/
theorem final (c : Dev nD) : (dats m 0 c).arrAt 6 cfg0.N
    = mlp (agg (m ((c : Thread nD τ).loc main_arg3)) (m ((c : Thread nD τ).loc main_arg1))) (m ((c : Thread nD τ).loc main_arg0))
        (m ((c : Thread nD τ).loc main_arg4)) (m ((c : Thread nD τ).loc main_arg5)) (m ((c : Thread nD τ).loc main_arg6))
        (m ((c : Thread nD τ).loc main_arg7)) := by
  have h0 : (V m c (Pipeline.arrRef spec0 0) : S50000x128.Idx → EReal)
      = agg (m ((c : Thread nD τ).loc main_arg3)) (m ((c : Thread nD τ).loc main_arg1)) := V_agg m c
  have h1 : V m c (Pipeline.arrRef spec0 1) = m ((c : Thread nD τ).loc main_arg0) := V_main_arg0 m c
  have h2 : V m c (Pipeline.arrRef spec0 2) = m ((c : Thread nD τ).loc main_arg4) := V_main_arg4 m c
  have h3 : V m c (Pipeline.arrRef spec0 3) = m ((c : Thread nD τ).loc main_arg5) := V_main_arg5 m c
  have h4 : V m c (Pipeline.arrRef spec0 4) = m ((c : Thread nD τ).loc main_arg6) := V_main_arg6 m c
  have h5 : V m c (Pipeline.arrRef spec0 5) = m ((c : Thread nD τ).loc main_arg7) := V_main_arg7 m c
  rw [(dats m 0 c).arrAt_eq_of_cover 6 (result m c) (fun t _ => flushed_eq m c t) cover]
  unfold result
  rw [h0, h1, h2, h3, h4, h5]

/-- The kernel's run: the result array ends as `mlp` of the scattered sums, the node features and the weights;
    the arguments are as launched. -/
theorem run : θ_run defs (onTc (τ := τ) (main (F := Ideal))) ⟨m, fun _ => 0, ρ⟩ fun r => ∀ c : Dev nD,
      r.2.mem ((c : Thread nD τ).loc main_v3)
        = mlp (agg (m ((c : Thread nD τ).loc main_arg3)) (m ((c : Thread nD τ).loc main_arg1))) (m ((c : Thread nD τ).loc main_arg0))
            (m ((c : Thread nD τ).loc main_arg4)) (m ((c : Thread nD τ).loc main_arg5)) (m ((c : Thread nD τ).loc main_arg6))
            (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefValue.lean ====
/-
  The reference's result, read entry by entry, is the two-layer function of `MlpSpec` applied to the
  edge sums it scatters into the receiving nodes' rows (kept as one unopened term), the node features, and the weights:
  its `concatenate` is the side-by-side row, each `dot_general` a plain sum over the one contracted axis, the two
  bias broadcasts read the bias at the column, and `relu` is `max · 0`.
-/
import proofs.«104883_j3375844295136_2_alg».proof.Proof.Gen.ReferenceIdeal.Read
import proofs.«104883_j3375844295136_2_alg».proof.Proof.MlpSpec

noncomputable section

namespace Cert.ReferenceIdeal.RefValue

open Cert.ReferenceIdeal Cert.ReferenceIdeal.Read Idealize.ShloMosaic Idealize.ShloMosaic.ValueIdx Cert.Mlp

/-- The reference's concatenated array at row `r`, entry `l`: the scattered sums' row, then the node features' row. -/
theorem concat_apply (x0 : FVec Ideal S50000x128 .f32) (x1 : FVec Ideal S800000x128 .f32) (x3 : IVec S800000 32)
    (r : Fin 50000) (l : Fin 256) :
    val_main_v3 (F := Ideal) x0 x1 x3 (ix2 r l) = catAt (val_main_v2 (F := Ideal) x1 x3) x0 r l := by
  unfold val_main_v3 catAt
  by_cases h : l.val < 128
  · rw [dif_pos h]
    refine concatenate_pair_apply_left (t := S50000x256) (s₁ := S50000x128) (s₂ := S50000x128) 1 _ _ _ (ix2 r l) rfl
      (ix2 r ⟨l.val, h⟩) (fun b => ?_)
    match b with
    | ⟨0, _⟩ => rfl
    | ⟨1, _⟩ => rfl
  · rw [dif_neg h]
    refine concatenate_pair_apply_right (t := S50000x256) (s₁ := S50000x128) (s₂ := S50000x128) 1 _ _ _ (ix2 r l) rfl rfl
      (ix2 r ⟨l.val - 128, by have := l.isLt; omega⟩) (fun b hb => ?_) ?_
    · match b with
      | ⟨0, _⟩ => rfl
      | ⟨1, _⟩ => exact absurd rfl hb
    · show l.val - 128 + 128 = l.val
      omega

/-- The reference's hidden activations are `hiddenAt`. -/
theorem hiddenAt_apply (x0 : FVec Ideal S50000x128 .f32) (x1 : FVec Ideal S800000x128 .f32) (x3 : IVec S800000 32)
    (x4 : FVec Ideal S256x512 .f32) (x5 : FVec Ideal S512 .f32) (r : Fin 50000) (k : Fin 512) :
    val_main_v8 (F := Ideal) x0 x1 x3 x4 x5 (ix2 r k) = hiddenAt (val_main_v2 (F := Ideal) x1 x3) x0 x4 x5 r k := by
  have el : ∀ l : Fin 256, lidx_main_v4 (ix2 r k) l = ix2 r l := fun l => funext fun a => Fin.ext (by
    match a with
    | ⟨0, _⟩ => rfl
    | ⟨1, _⟩ => rfl)
  have er : ∀ l : Fin 256, ridx_main_v4 (ix2 r k) l = ix2 l k := fun l => funext fun a => Fin.ext (by
    match a with
    | ⟨0, _⟩ => rfl
    | ⟨1, _⟩ => rfl)
  have eb : idx_main_v5 (idx_main_v6 (ix2 r k)) = ix1 k := funext fun a => Fin.ext (by
    match a with
    | ⟨0, _⟩ => rfl)
  rw [val_main_v8_apply, val_main_v7_apply, val_main_v4_apply, val_main_v6_apply, val_main_v5_apply,
    val_main_call0_v0_apply, val_main_call0_cst_apply, eb]
  unfold hiddenAt
  simp only [el, er, concat_apply, Ideal.maximumf_def, Ideal.addf_def, Ideal.ofBits_def, Ideal.ofBits_zero_f32]

/-- The reference's result is `mlp` of the scattered sums, the node features and the weights. -/
theorem result_eq (x0 : FVec Ideal S50000x128 .f32) (x1 : FVec Ideal S800000x128 .f32) (x3 : IVec S800000 32)
    (x4 : FVec Ideal S256x512 .f32) (x5 : FVec Ideal S512 .f32) (x6 : FVec Ideal S512x128 .f32) (x7 : FVec Ideal S128 .f32) :
    val_main_v12 (F := Ideal) x0 x1 x3 x4 x5 x6 x7 = mlp (val_main_v2 (F := Ideal) x1 x3) x0 x4 x5 x6 x7 := by
  funext i
  obtain ⟨r, q, rfl⟩ : ∃ (r : Fin 50000) (q : Fin 128), i = ix2 r q := ⟨i 0, i 1, eq_ix2 i⟩
  have el : ∀ k : Fin 512, lidx_main_v9 (ix2 r q) k = ix2 r k := fun k => funext fun a => Fin.ext (by
    match a with
    | ⟨0, _⟩ => rfl
    | ⟨1, _⟩ => rfl)
  have er : ∀ k : Fin 512, ridx_main_v9 (ix2 r q) k = ix2 k q := fun k => funext fun a => Fin.ext (by
    match a with
    | ⟨0, _⟩ => rfl
    | ⟨1, _⟩ => rfl)
  have eb : idx_main_v10 (idx_main_v11 (ix2 r q)) = ix1 q := funext fun a => Fin.ext (by
    match a with
    | ⟨0, _⟩ => rfl)
  rw [val_main_v12_apply, val_main_v9_apply, val_main_v11_apply, val_main_v10_apply, eb, mlp_ix2]
  unfold mlpAt
  simp only [el, er, hiddenAt_apply, Ideal.addf_def]

end Cert.ReferenceIdeal.RefValue

end
-- ==== Proof.lean ====
/-
  A graph-network node update: edge features are summed into their receiving nodes' rows, the sums are set beside the
  node features, and a two-layer perceptron (256 → 512 with `max · 0`, then 512 → 128) is applied to every row.

  The kernel leaves the summation to the host and computes the perceptron over ten tiles of 5000 rows; the reference
  computes it over all 50000 rows at once.  Over the extended reals the two agree entry by entry, with no appeal to
  finiteness: a row of the perceptron's result reads only the same row of its inputs (`MlpSpec`), each tile the
  kernel stores is the perceptron of the tile's rows (`Tile`), the ten tiles cover the array (`Whole`), and the
  reference's operations, read entry by entry, are the same sums (`RefValue`).  The summation into receivers is the
  same host operation of the same arguments in both programs and is never opened.

  The idealized kernel is the kernel's own text read over the extended reals (no rewrite was applied), so
  `preserves` has nothing to show; the three frames are the generated runs.
-/
import proofs.«104883_j3375844295136_2_alg».proof.Defs
import proofs.«104883_j3375844295136_2_alg».proof.Proof.Gen.Kernel
import proofs.«104883_j3375844295136_2_alg».proof.Proof.Gen.Kernel.Skeleton
import proofs.«104883_j3375844295136_2_alg».proof.Proof.Gen.Kernel.Launch
import proofs.«104883_j3375844295136_2_alg».proof.Proof.Gen.Kernel.Points
import proofs.«104883_j3375844295136_2_alg».proof.Proof.Gen.Kernel.Frame
import proofs.«104883_j3375844295136_2_alg».proof.Proof.Gen.KernelIdeal
import proofs.«104883_j3375844295136_2_alg».proof.Proof.Gen.KernelIdeal.Skeleton
import proofs.«104883_j3375844295136_2_alg».proof.Proof.Gen.KernelIdeal.Launch
import proofs.«104883_j3375844295136_2_alg».proof.Proof.Gen.KernelIdeal.Points
import proofs.«104883_j3375844295136_2_alg».proof.Proof.Gen.KernelIdeal.Frame
import proofs.«104883_j3375844295136_2_alg».proof.Proof.Gen.ReferenceIdeal
import proofs.«104883_j3375844295136_2_alg».proof.Proof.Gen.Pre_finite_inputs
import proofs.«104883_j3375844295136_2_alg».proof.Proof.Gen.KernelIdeal.Value
import proofs.«104883_j3375844295136_2_alg».proof.Proof.Gen.ReferenceIdeal.Run
import proofs.«104883_j3375844295136_2_alg».proof.Proof.Gen.ReferenceIdeal.Read
import proofs.«104883_j3375844295136_2_alg».proof.Proof.Whole
import proofs.«104883_j3375844295136_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs sum the edge features into receivers' rows by the same host operation of the same arguments. -/
theorem agg_eq (x1 : FVec Ideal Cert.ReferenceIdeal.S800000x128 .f32) (x3 : IVec Cert.ReferenceIdeal.S800000 32) :
    Cert.ReferenceIdeal.Read.val_main_v2 (F := Ideal) x1 x3 = Cert.KernelIdeal.Whole.agg x3 x1 := rfl

/-- From memories agreeing on the arguments both runs end with the result array at `mlp` of the scattered sums,
    the node features and the weights. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, a3, a4, a5, a6, a7⟩ := hagree c
  rw [Cert.ReferenceIdeal.Read.val_main_v12_eq, Cert.ReferenceIdeal.RefValue.result_eq, agg_eq, a0, a1, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
